-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x129 : Shape := ⟨2, ![8192, 129]⟩
abbrev S129x64 : Shape := ⟨2, ![129, 64]⟩
abbrev S64 : Shape := ⟨1, ![64]⟩
abbrev S64x64 : Shape := ⟨2, ![64, 64]⟩
abbrev S_ : Shape := ⟨0, ![]⟩

class Facts : Prop where
  bcast_S_S8192x129 : S_.BroadcastsInDim S8192x129 (![] : Fin 0 → Fin S8192x129.rank)
  reducesTo_S8192x129_S_d0_1 : S8192x129.ReducesTo [0, 1] S_
  h_S_ : 0 < S_.numel
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S129x64 .f32) (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S129x64 .f32 := Host.absf main_arg5
  let main_cst_8 : FVec F S_ .f32 := constant S_ .f32 0x7F800000#32
  let main_v25 : FVec F S129x64 .f32 := broadcastInDim S129x64 ![] bcast_S_S129x64 main_cst_8
  let main_v26 : IVec S129x64 1 := cmpf .olt main_v24 main_v25
  let main_c_9 : IVec S_ 1 := constantI S_ 1 1#1
  let main_v27 : IVec S_ 1 := (fun x v => Host.reduce IntOp.andi x v reducesTo_S129x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S8192x129 .f32) (main_arg1 : FVec F S129x64 .f32) (main_arg2 : FVec F S64 .f32) (main_arg3 : FVec F S64x64 .f32) (main_arg4 : FVec F S64 .f32) (main_arg5 : FVec F S129x64 .f32) (main_arg6 : FVec F S64 .f32) (main_arg7 : FVec F S64x64 .f32) (main_arg8 : FVec F S64 .f32) : IVec S_ 1 :=
  let main_v0 : FVec F S8192x129 .f32 := Host.absf main_arg0
  let main_cst : FVec F S_ .f32 := constant S_ .f32 0x7F800000#32
  let main_v1 : FVec F S8192x129 .f32 := broadcastInDim S8192x129 ![] bcast_S_S8192x129 main_cst
  let main_v2 : IVec S8192x129 1 := cmpf .olt main_v0 main_v1
  let main_c : IVec S_ 1 := constantI S_ 1 1#1
  let main_v3 : IVec S_ 1 := (fun x v => Host.reduce IntOp.andi x v reducesTo_S8192x129_S_d0_1 h_S_) main_v2 main_c
  let main_v4 : FVec F S129x64 .f32 := Host.absf main_arg1
  let main_cst_0 : FVec F S_ .f32 := constant S_ .f32 0x7F800000#32
  let main_v5 : FVec F S129x64 .f32 := broadcastInDim S129x64 ![] bcast_S_S129x64 main_cst_0
  let main_v6 : IVec S129x64 1 := cmpf .olt main_v4 main_v5
  let main_c_1 : IVec S_ 1 := constantI S_ 1 1#1
  let main_v7 : IVec S_ 1 := (fun x v => Host.reduce IntOp.andi x v reducesTo_S129x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S8192x129 : Shape := ⟨2, ![8192, 129]⟩
abbrev S129x64 : Shape := ⟨2, ![129, 64]⟩
abbrev S64 : Shape := ⟨1, ![64]⟩
abbrev S64x64 : Shape := ⟨2, ![64, 64]⟩
abbrev S8192x64 : Shape := ⟨2, ![8192, 64]⟩
abbrev S1x64 : Shape := ⟨2, ![1, 64]⟩
abbrev S_ : Shape := ⟨0, ![]⟩
abbrev S8192x1 : Shape := ⟨2, ![8192, 1]⟩
abbrev S512x64 : Shape := ⟨2, ![512, 64]⟩
abbrev S512x1 : Shape := ⟨2, ![512, 1]⟩
abbrev S512x8192 : Shape := ⟨2, ![512, 8192]⟩
abbrev S512 : Shape := ⟨1, ![512]⟩
abbrev S1x8192 : Shape := ⟨2, ![1, 8192]⟩
abbrev S8192x8192 : Shape := ⟨2, ![8192, 8192]⟩
abbrev S128x64 : Shape := ⟨2, ![128, 64]⟩
abbrev S128x8192 : Shape := ⟨2, ![128, 8192]⟩
abbrev S128 : Shape := ⟨1, ![128]⟩
abbrev S128x1 : Shape := ⟨2, ![128, 1]⟩

abbrev nBuf : Space → Nat
  | .hbm => 36
  | .vmem => 11
  | .smem => 0
  | _ => 0

abbrev bufTy : (tb : Table) → Fin (tcTables nBuf tb) → BufTy
  | .hbm, ⟨0, _⟩ => ⟨S8192x129, .f32⟩
  | .hbm, ⟨1, _⟩ => ⟨S129x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S129x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S8192x64, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S1x64, .f32⟩
  | .hbm, ⟨18, _⟩ => ⟨S8192x64, .f32⟩
  | .hbm, ⟨19, _⟩ => ⟨S8192x64, .f32⟩
  | .hbm, ⟨20, _⟩ => ⟨S8192x64, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S_, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S1x64, .f32⟩
  | .hbm, ⟨29, _⟩ => ⟨S8192x64, .f32⟩
  | .hbm, ⟨30, _⟩ => ⟨S8192x64, .f32⟩
  | .hbm, ⟨31, _⟩ => ⟨S8192x64, .bf16⟩
  | .hbm, ⟨32, _⟩ => ⟨S8192x64, .bf16⟩
  | .hbm, ⟨33, _⟩ => ⟨S8192x1, .f32⟩
  | .hbm, ⟨34, _⟩ => ⟨S1x8192, .f32⟩
  | .hbm, ⟨35, _⟩ => ⟨S8192x8192, .f32⟩
  | .local _ .vmem, ⟨0, _⟩ => ⟨S512x64, .bf16⟩
  | .local _ .vmem, ⟨1, _⟩ => ⟨S512x64, .bf16⟩
  | .local _ .vmem, ⟨2, _⟩ => ⟨S8192x64, .bf16⟩
  | .local _ .vmem, ⟨3, _⟩ => ⟨S512x1, .f32⟩
  | .local _ .vmem, ⟨4, _⟩ => ⟨S512x1, .f32⟩
  | .local _ .vmem, ⟨5, _⟩ => ⟨S128x64, .bf16⟩
  | .local _ .vmem, ⟨6, _⟩ => ⟨S128x64, .bf16⟩
  | .local _ .vmem, ⟨7, _⟩ => ⟨S8192x64, .bf16⟩
  | .local _ .vmem, ⟨8, _⟩ => ⟨S1x8192, .f32⟩
  | .local _ .vmem, ⟨9, _⟩ => ⟨S128x8192, .f32⟩
  | .local _ .vmem, ⟨10, _⟩ => ⟨S128x8192, .f32⟩
  | _, _ => ⟨S8192x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_cst : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S8192x1_S1x8192 : S8192x1.ShapeCasts S1x8192
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  reduces_S128x8192_S128 : S128x8192.Reduces [1] S128
  shapeCasts_S128_S128x1 : S128.ShapeCasts S128x1
  broadcasts_S128x1_S128x8192 : S128x1.Broadcasts S128x8192
  inb_S128x8192_S128x8192_0_0 : ∀ a, (![0, 0] : Fin 2 → Nat) a + S128x8192.size a ≤ S128x8192.size a
  h_S128x8192 : 0 < S128x8192.numel
  dot_S8192x129_S129x64_S8192x64_1_0_0_1_n_n_wf : DotDims.WF S8192x129 S129x64 S8192x64 [1] [0] [0] [1] [] []
  dot_S8192x64_S64x64_S8192x64_1_0_0_1_n_n_wf : DotDims.WF S8192x64 S64x64 S8192x64 [1] [0] [0] [1] [] []
  dot_S512x64_S8192x64_S512x8192_1_1_0_0_n_n_wf : DotDims.WF S512x64 S8192x64 S512x8192 [1] [1] [0] [0] [] []
  dot_S128x64_S8192x64_S128x8192_1_1_0_0_n_n_wf : DotDims.WF S128x64 S8192x64 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .bf16 = 32 ∨ (Rect.block (s := S8192x64) S512x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .bf16 = 32 ∨ (Rect.block (s := S8192x64) S8192x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S8192x64.size a
  hwx1_0 : ∀ i : grid1.Coords, EltTy.bits .bf16 = 32 ∨ (Rect.block (s := S8192x64) S128x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .bf16 = 32 ∨ (Rect.block (s := S8192x64) S8192x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x8192.size a ≤ S8192x8192.size a
  hwx1_3 : ∀ i : grid1.Coords, EltTy.bits .f32 = 32 ∨ (Rect.block (s := S8192x8192) S128x8192.size (cc1_transform_3 i) (hinb1_3 i)).WholeWords (EltTy.packing .f32)

variable [Facts₀]

def dot_S8192x129_S129x64_S8192x64_1_0_0_1_n_n : DotDims S8192x129 S129x64 S8192x64 where
  lhsContracting := [1]
  rhsContracting := [0]
  lhsNonContracting := [0]
  rhsNonContracting := [1]
  lhsBatch := []
  rhsBatch := []
  wf := dot_S8192x129_S129x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S512x64_S8192x64_S512x8192_1_1_0_0_n_n : DotDims S512x64 S8192x64 S512x8192 where
  lhsContracting := [1]
  rhsContracting := [1]
  lhsNonContracting := [0]
  rhsNonContracting := [0]
  lhsBatch := []
  rhsBatch := []
  wf := dot_S512x64_S8192x64_S512x8192_1_1_0_0_n_n_wf
def dot_S128x64_S8192x64_S128x8192_1_1_0_0_n_n : DotDims S128x64 S8192x64 S128x8192 where
  lhsContracting := [1]
  rhsContracting := [1]
  lhsNonContracting := [0]
  rhsNonContracting := [0]
  lhsBatch := []
  rhsBatch := []
  wf := dot_S128x64_S8192x64_S128x8192_1_1_0_0_n_n_wf

abbrev win0_0 : Pipeline.Window sig grid0 :=
  Pipeline.Window.ofSpec (Memref.whole main_v18) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x129 : Shape := ⟨2, ![8192, 129]⟩
abbrev S129x64 : Shape := ⟨2, ![129, 64]⟩
abbrev S64 : Shape := ⟨1, ![64]⟩
abbrev S64x64 : Shape := ⟨2, ![64, 64]⟩
abbrev S8192x64 : Shape := ⟨2, ![8192, 64]⟩
abbrev S1x64 : Shape := ⟨2, ![1, 64]⟩
abbrev S_ : Shape := ⟨0, ![]⟩
abbrev S64x8192 : Shape := ⟨2, ![64, 8192]⟩
abbrev S8192x8192 : Shape := ⟨2, ![8192, 8192]⟩
abbrev S8192 : Shape := ⟨1, ![8192]⟩
abbrev S1x8192 : Shape := ⟨2, ![1, 8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x129, .f32⟩
  | .hbm, ⟨1, _⟩ => ⟨S129x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S129x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S8192x64, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S1x64, .f32⟩
  | .hbm, ⟨18, _⟩ => ⟨S8192x64, .f32⟩
  | .hbm, ⟨19, _⟩ => ⟨S8192x64, .f32⟩
  | .hbm, ⟨20, _⟩ => ⟨S8192x64, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S_, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S1x64, .f32⟩
  | .hbm, ⟨29, _⟩ => ⟨S8192x64, .f32⟩
  | .hbm, ⟨30, _⟩ => ⟨S8192x64, .f32⟩
  | .hbm, ⟨31, _⟩ => ⟨S64x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x8192, .f32⟩
  | .hbm, ⟨54, _⟩ => ⟨S8192x8192, .f32⟩
  | _, _ => ⟨S8192x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_cst : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  transposes_S8192x64_S64x8192_1_0 : S8192x64.Transposes [1, 0] S64x8192
  reducesTo_S8192x8192_S8192_d1 : S8192x8192.ReducesTo [1] S8192
  h_S_ : 0 < S_.numel
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x129_S129x64_S8192x64_1_0_0_1_n_n_wf : DotDims.WF S8192x129 S129x64 S8192x64 [1] [0] [0] [1] [] []
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []

variable [Facts₀]

def dot_S8192x129_S129x64_S8192x64_1_0_0_1_n_n : DotDims S8192x129 S129x64 S8192x64 where
  lhsContracting := [1]
  rhsContracting := [0]
  lhsNonContracting := [0]
  rhsNonContracting := [1]
  lhsBatch := []
  rhsBatch := []
  wf := dot_S8192x129_S129x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KernelRun.lean ====
/-
  The kernel program's run, with its result named: every weakly fair execution of the program terminates without a
  fault, leaves the nine argument arrays as launched, and leaves the result array at the contents the second region's
  write-backs give it — the last of the buffer contents folded through the program's host stretches and its two regions.
-/
import proofs.«153500_j28063316312444_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run, the result array named: it ends at the last boundary's contents of its buffer, and the
    arguments end as launched. -/
theorem run_main : θ_run defs (onTc (τ := τ) (main (F := F))) ⟨m, fun _ => 0, ρ⟩ (fun r => ∀ c : Dev nD,
      r.2.mem ((c.tc : Thread nD τ).loc main_v22) = W8 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v22 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Run

end
-- ==== Proof.AttnSpec.lean ====
/-
  The mathematics both programs compute, on the extended reals, from two 8192 × 64 matrices q and k:
  the scores s[i,j] = ∑_d q[i,d]·k[j,d]; the largest score of every row, R[j] = max_j' s[j,j'] (from -∞);
  the scaled scores a[i,j] = (10·s[i,j]) / R[j] — column j is divided by the maximum of ROW j —; and the softmax of every
  row of a: e[i,j] = exp(a[i,j] − max_j' a[i,j']), out[i,j] = e[i,j] / ∑_j' e[i,j'].
  No program is imported here: the functions are stated over plain coordinates.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The shape of q and of k: 8192 items, 64 features each. -/
abbrev SQK : Shape := ⟨2, ![8192, 64]⟩

/-- The f32 word of -∞, the value every maximum starts from. -/
abbrev negInf : EReal := Ideal.ofBits .f32 0xFF800000#32
/-- The f32 word of the temperature 10. -/
abbrev ten : EReal := Ideal.ofBits .f32 0x41200000#32

/-- The maximum of a family over the 8192 items, started from -∞. -/
def maxOver (f : Fin 8192 → EReal) : EReal := (Finset.univ : Finset (Fin 8192)).fold max negInf f

/-- Item i's score against item j: the inner product of row i of q and row j of k. -/
def score (q k : SQK.Idx → EReal) (i j : Fin 8192) : EReal := ∑ d : Fin 64, q (ix2 i d) * k (ix2 j d)

/-- The largest score of row j. -/
def rowMax (q k : SQK.Idx → EReal) (j : Fin 8192) : EReal := maxOver (score q k j)

/-- One row of scores s, scaled: entry j is 10·s[j] divided by R[j]. -/
def rowScaled (s R : Fin 8192 → EReal) (j : Fin 8192) : EReal := Ideal.div (ten * s j) (R j)

/-- The exponentials of a scaled row, shifted by the row's maximum. -/
def rowExp (s R : Fin 8192 → EReal) (j : Fin 8192) : EReal := Ideal.exp (rowScaled s R j - maxOver (rowScaled s R))

/-- The softmax of a scaled row. -/
def rowOut (s R : Fin 8192 → EReal) (j : Fin 8192) : EReal := Ideal.div (rowExp s R j) (∑ j' : Fin 8192, rowExp s R j')

/-- The result at (i, j), for any vector R of column divisors. -/
def out3 (q k : SQK.Idx → EReal) (R : Fin 8192 → EReal) (i j : Fin 8192) : EReal := rowOut (score q k i) R j

/-- The result at (i, j): the divisors are the row maxima of the scores themselves. -/
def out (q k : SQK.Idx → EReal) (i j : Fin 8192) : EReal := out3 q k (rowMax q k) i j

/-- A maximum started from -∞ is at least -∞, so taking the maximum with -∞ once more changes nothing. -/
theorem max_negInf_maxOver (f : Fin 8192 → EReal) : max negInf (maxOver f) = maxOver f :=
  max_eq_right ((Finset.le_fold_max _).mpr (Or.inl le_rfl))

end Cert.Attn

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.RowMaxBody.lean ====
import proofs.«153500_j28063316312444_1_alg».proof.Proof.Gen.KernelIdeal.Skeleton
import proofs.«153500_j28063316312444_1_alg».proof.Proof.AttnSpec
import proofs.«153500_j28063316312444_1_alg».proof.Proof.LibUnitAxis
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RowMax

open Cert.KernelIdeal Cert.KernelIdeal.Gen Idealize.ShloMosaic Idealize.ShloMosaic.ValueIdx

/-! ## The scores of one block

The first kernel multiplies a 512 × 64 block of q with the whole 8192 × 64 matrix k, contracting the second axis of
BOTH operands: entry (r, j') of the product is the inner product of row r of the block with row j' of k. -/

/-- The left operand's index of the product at (r, j') keeps the row r on its first axis. -/
theorem scores_lhs_row (i : S512x8192.Idx) (q : dot_S512x64_S8192x64_S512x8192_1_1_0_0_n_n.contr.Idx) :
    (dot_S512x64_S8192x64_S512x8192_1_1_0_0_n_n.lhsIdx i q 0).val = (i 0).val := by
  unfold DotDims.lhsIdx
  rw [dif_neg (show ¬(0 : Fin S512x64.rank) ∈ dot_S512x64_S8192x64_S512x8192_1_1_0_0_n_n.lhsBatch by decide),
    dif_pos (show (0 : Fin S512x64.rank) ∈ dot_S512x64_S8192x64_S512x8192_1_1_0_0_n_n.lhsNonContracting by decide)]
  rfl

/-- The right operand's index of the product at (r, j') has the COLUMN j' on its first axis: k enters by rows. -/
theorem scores_rhs_row (i : S512x8192.Idx) (q : dot_S512x64_S8192x64_S512x8192_1_1_0_0_n_n.contr.Idx) :
    (dot_S512x64_S8192x64_S512x8192_1_1_0_0_n_n.rhsIdx i q 0).val = (i 1).val := by
  unfold DotDims.rhsIdx
  rw [dif_neg (show ¬(0 : Fin S8192x64.rank) ∈ dot_S512x64_S8192x64_S512x8192_1_1_0_0_n_n.rhsBatch by decide),
    dif_pos (show (0 : Fin S8192x64.rank) ∈ dot_S512x64_S8192x64_S512x8192_1_1_0_0_n_n.rhsNonContracting by decide)]
  rfl

/-- The product into a zero accumulator, at (r, j'): the sum over the 64 features of l[r, d] · k[j', d]. -/
theorem scores_apply (l : FVec Ideal S512x64 .bf16) (k : FVec Ideal S8192x64 .bf16) (r : Fin 512) (j' : Fin 8192) :
    matmul dot_S512x64_S8192x64_S512x8192_1_1_0_0_n_n none l k (constant S512x8192 .f32 0x00000000#32) (ix2 r j')
      = ∑ d : Fin 64, l (ix2 r d) * k (ix2 j' d) := by
  refine (Ideal.matmul_constant_zero_apply dot_S512x64_S8192x64_S512x8192_1_1_0_0_n_n none l k (ix2 r j')).trans ?_
  rw [← Equiv.sum_comp (ValueIdx.contrEquiv1 dot_S512x64_S8192x64_S512x8192_1_1_0_0_n_n 64 rfl rfl).symm]
  refine Finset.sum_congr rfl fun d _ => ?_
  have hd := ValueIdx.contrEquiv1_symm_val dot_S512x64_S8192x64_S512x8192_1_1_0_0_n_n 64 rfl rfl d
  have el : dot_S512x64_S8192x64_S512x8192_1_1_0_0_n_n.lhsIdx (ix2 r j')
      ((ValueIdx.contrEquiv1 dot_S512x64_S8192x64_S512x8192_1_1_0_0_n_n 64 rfl rfl).symm d) = ix2 r d :=
    funext fun a => Fin.ext (by
      match a with
      | ⟨0, _⟩ => exact scores_lhs_row _ _
      | ⟨1, _⟩ => exact (dot_S512x64_S8192x64_S512x8192_1_1_0_0_n_n.lhsIdx_val_of_single rfl _ _).trans hd)
  have er : dot_S512x64_S8192x64_S512x8192_1_1_0_0_n_n.rhsIdx (ix2 r j')
      ((ValueIdx.contrEquiv1 dot_S512x64_S8192x64_S512x8192_1_1_0_0_n_n 64 rfl rfl).symm d) = ix2 j' d :=
    funext fun a => Fin.ext (by
      match a with
      | ⟨0, _⟩ => exact scores_rhs_row _ _
      | ⟨1, _⟩ => exact (dot_S512x64_S8192x64_S512x8192_1_1_0_0_n_n.rhsIdx_val_of_single rfl _ _).trans hd)
  rw [el, er]

/-! ## The maximum along a row -/

/-- The maximum over the second axis of a 512 × 8192 array, started from the word of -∞, at row r: the maximum over the
    8192 items of the entries of row r. -/
theorem rowMax_apply (src : FVec Ideal S512x8192 .f32) (h : S512x8192.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = Cert.Attn.maxOver (fun j' : Fin 8192 => src (ix2 r j')) := by
  refine (Ideal.multiReduction_maximumf_single src 0xFF800000#32 h hφ hacc (ix1 r)).trans ?_
  unfold Cert.Attn.maxOver
  refine congrArg (fun f => (Finset.univ : Finset (Fin 8192)).fold max Cert.Attn.negInf f) ?_
  funext j'
  refine congrArg src ?_
  funext a
  match a with
  | ⟨0, _⟩ => rfl
  | ⟨1, _⟩ => rfl

/-- The first kernel's stored value at row r of its block: the largest inner product of row r of the q block
    with a row of k. -/
theorem payload (x0 : Vec Ideal S512x64 .bf16) (x1 : Vec Ideal S8192x64 .bf16) (r : Fin 512) :
    k0_pay1 (F := Ideal) x0 x1 (ix2 r (0 : Fin 1))
      = Cert.Attn.maxOver (fun j' : Fin 8192 => ∑ d : Fin 64, x0 (ix2 r d) * x1 (ix2 j' d)) := by
  unfold k0_pay1
  refine (Cert.Lib.UnitAxis.shapeCast_a_a1_apply _ _ r (0 : Fin 1)).trans ?_
  refine (rowMax_apply _ _ _ _ r).trans ?_
  refine congrArg Cert.Attn.maxOver ?_
  funext j'
  rw [shapeCast_self, shapeCast_self]
  exact scores_apply x0 x1 r j'

end Cert.KernelIdeal.RowMax

end
-- ==== Proof.RowMaxArray.lean ====
import proofs.«153500_j28063316312444_1_alg».proof.Proof.Gen.KernelIdeal.Frame
import proofs.«153500_j28063316312444_1_alg».proof.Proof.RowMaxBody
import proofs.«153500_j28063316312444_1_alg».proof.Proof.AttnSpec
import Idealize.ShloMosaic.Lib.Pipeline.Value
import Idealize.ShloMosaic.Lib.ValueIdx

set_option maxRecDepth 16384

noncomputable section

namespace Cert.KernelIdeal.RowMax

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## Where each block sits

The first region runs over 16 points. At point t the q window holds rows 512·t … 512·t + 511 of q, the k window the whole
of k at every point, and the output window rows 512·t … 512·t + 511 of the 8192 × 1 column of row maxima. -/

/-- Every access of the body starts at the origin of its buffer. -/
theorem origin : (![0, 0] : Fin 2 → Nat) = fun _ => 0 := funext fun a => by fin_cases a <;> rfl

/-- The block indices of the three windows at point t: (t, 0) for q, (0, 0) for k, (t, 0) for the output. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The q block at point t, entry x, is q at row 512·t + x₀. -/
theorem qblock_apply (c : Dev nD) (t : Fin cfg0.N) (x : S512x64.Idx) (k : S8192x64.Idx)
    (hk0 : (k 0).val = 512 * t.val + (x 0).val) (hk1 : (k 1).val = (x 1).val) :
    (iblk0 V c 0 t : Vec Ideal S512x64 .bf16) x = (V c main_v18 : S8192x64.Idx → EReal) k := by
  obtain ⟨e0, e1, -⟩ := block_indices t
  unfold iblk0
  rw [View.read_apply]
  show V c main_v18 _ = V c main_v18 _
  refine congrArg (V c main_v18) ?_
  funext a
  apply Fin.ext
  match a with
  | ⟨0, _⟩ => show win0_0.index t 0 * 512 + 1 * (x 0).val = (k 0).val; rw [e0, hk0]; omega
  | ⟨1, _⟩ => show win0_0.index t 1 * 64 + 1 * (x 1).val = (k 1).val; rw [e1, hk1]; omega

/-- The k block at any point is the whole of k. -/
theorem kblock_apply (c : Dev nD) (t : Fin cfg0.N) (x : S8192x64.Idx) :
    (iblk0 V c 1 t : Vec Ideal S8192x64 .bf16) x = (V c main_v19 : S8192x64.Idx → EReal) x := by
  obtain ⟨-, -, e2, e3, -⟩ := block_indices t
  unfold iblk0
  rw [View.read_apply]
  show V c main_v19 _ = V c main_v19 _
  refine congrArg (V c main_v19) ?_
  funext a
  apply Fin.ext
  match a with
  | ⟨0, _⟩ => show win0_1.index t 0 * 8192 + 1 * (x 0).val = (x 0).val; rw [e2]; omega
  | ⟨1, _⟩ => show win0_1.index t 1 * 64 + 1 * (x 1).val = (x 1).val; rw [e3]; omega

/-! ## One block of the result -/

/-- The body's stored value at row r of its block, when the q block's row r is row i of q and the k block is k:
    the largest score of row i. -/
theorem block_value (x0 : Vec Ideal S512x64 .bf16) (x1 : Vec Ideal S8192x64 .bf16) (q k : Cert.Attn.SQK.Idx → EReal)
    (r : Fin 512) (i : Fin 8192) (h0 : ∀ d : Fin 64, x0 (ix2 r d) = q (ix2 i d))
    (h1 : ∀ (j : Fin 8192) (d : Fin 64), x1 (ix2 j d) = k (ix2 j d)) :
    k0_pay1 (F := Ideal) x0 x1 (ix2 r (0 : Fin 1)) = Cert.Attn.rowMax q k i := by
  rw [payload]
  unfold Cert.Attn.rowMax Cert.Attn.score
  refine congrArg Cert.Attn.maxOver ?_
  funext j'
  exact Finset.sum_congr rfl fun d _ => by rw [h0 d, h1 j' d]

/-- What point t writes back is block t of the column of row maxima. -/
theorem flushed_eq (c : Dev nD) (t : Fin cfg0.N) :
    (dat0 (F := Ideal) V c).flushed 2 t = ((cfg0.win 2).blk t).view.read (Elt Ideal)
      (fun i : S8192x1.Idx => Cert.Attn.rowMax (V c main_v18) (V c main_v19) ⟨(i 0).val, (i 0).isLt⟩) := by
  show (cfg0.win 2).cut (grid0.coords t) ((dat0 V c).after 2 t) = _
  rw [after0_2]
  unfold out0_2
  rw [View.canon_unit_zero origin]
  simp only [View.ld_unit_zero (S := S512x64) origin, View.ld_unit_zero (S := S8192x64) origin]
  obtain ⟨-, -, -, -, e4, e5⟩ := block_indices t
  refine funext fun (y : S512x1.Idx) => ?_
  obtain ⟨r, u, rfl⟩ : ∃ (r : Fin 512) (u : Fin 1), y = ix2 r u := ⟨y 0, y 1, eq_ix2 y⟩
  obtain rfl : u = 0 := Subsingleton.elim _ _
  show k0_pay1 (F := Ideal) (iblk0 V c 0 t) (iblk0 V c 1 t) (ix2 r (0 : Fin 1))
    = Cert.Attn.rowMax (V c main_v18) (V c main_v19)
        ⟨((((cfg0.win 2).blk t).view.emb (ix2 r (0 : Fin 1)) : S8192x1.Idx) 0).val,
         ((((cfg0.win 2).blk t).view.emb (ix2 r (0 : Fin 1)) : S8192x1.Idx) 0).isLt⟩
  refine block_value (iblk0 V c 0 t) (iblk0 V c 1 t) (V c main_v18) (V c main_v19) r _ (fun d => ?_) (fun j d => ?_)
  · refine qblock_apply V c t (ix2 r d) _ ?_ ?_
    · show win0_2.index t 0 * 512 + 1 * r.val = 512 * t.val + r.val
      rw [e4]; omega
    · rfl
  · exact kblock_apply V c t (ix2 j d)

/-! ## The blocks cover the column -/

/-- An index of the column is in point t's block iff each coordinate is in the block's range on its axis. -/
theorem mem_blk (t : Fin cfg0.N) (i : S8192x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v20).slice (win0_2.rect t)).set ↔ _
  rw [View.set_slice_whole, Rect.mem_set_unit]
  exact Iff.rfl

/-- Row i of the column lies in the block of point i / 512, and every point writes its block back. -/
theorem cover (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 16 := N_0
  have ht : (i 0).val / 512 < cfg0.N := by rw [hN]; omega
  obtain ⟨-, -, -, -, e4, e5⟩ := block_indices ⟨(i 0).val / 512, ht⟩
  refine ⟨⟨(i 0).val / 512, ht⟩, flush0_2 _, ?_⟩
  rw [mem_blk]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e4]
    show (i 0).val / 512 * 512 ≤ (i 0).val ∧ (i 0).val < (i 0).val / 512 * 512 + 512
    omega
  | ⟨1, _⟩ =>
    show win0_2.index ⟨(i 0).val / 512, ht⟩ (1 : Fin 2) * 1 ≤ (i 1).val
      ∧ (i 1).val < win0_2.index ⟨(i 0).val / 512, ht⟩ (1 : Fin 2) * 1 + 1
    rw [e5]
    omega

/-! ## The array after the region -/

/-- After the first region, its output array holds at row i the largest score of row i, whatever q and k the region
    found in its two input arrays. -/
theorem final (c : Dev nD) :
    (dat0 (F := Ideal) V c).arrAt 2 cfg0.N
      = fun i : S8192x1.Idx => Cert.Attn.rowMax (V c main_v18) (V c main_v19) ⟨(i 0).val, (i 0).isLt⟩ :=
  (dat0 (F := Ideal) V c).arrAt_eq_of_cover 2
    (fun i : S8192x1.Idx => Cert.Attn.rowMax (V c main_v18) (V c main_v19) ⟨(i 0).val, (i 0).isLt⟩)
    (fun t _ => flushed_eq V c t) cover

end Cert.KernelIdeal.RowMax

end
-- ==== Proof.SoftmaxBody.lean ====
/-
  The value the softmax kernel stores, at one entry of its block.

  From a 128 × 64 block of q, the whole 8192 × 64 matrix k and a one-row block of 8192 divisors the kernel computes,
  for every row r of the block: the scores s[j'] = ∑_d q[r,d]·k[j',d] (one matrix product contracting the feature axis
  of both operands); the scaled scores a[j'] = (10·s[j']) / R[j'], the divisor row spread down the rows; the row's
  maximum m = max_j' a[j'] from -∞, kept as a column and spread back over the row; e[j'] = exp(a[j'] − m); the row's
  sum of the e[j'], again kept as a column and spread back; and e[j] divided by that sum. Each operation that is
  not pointwise is read at the entry (r, j) by one lemma over a variable matrix; the softmax of a row is then composed
  from them, and the product and the scaling are substituted last.
-/
import proofs.«153500_j28063316312444_1_alg».proof.Proof.Gen.KernelIdeal.Skeleton
import proofs.«153500_j28063316312444_1_alg».proof.Proof.AttnSpec
import proofs.«153500_j28063316312444_1_alg».proof.Proof.LibUnitAxis
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Softmax

open Cert.KernelIdeal Cert.KernelIdeal.Gen Idealize.ShloMosaic Idealize.ShloMosaic.ValueIdx

/-! ## The product of the q block with the transpose of k

The dimension numbers contract axis 1 of both operands and keep axis 0 of each: the left operand is read at
(row of the result, contraction position), the right one at (column of the result, contraction position). -/

theorem dot_lhs_row (i : S128x8192.Idx) (q : dot_S128x64_S8192x64_S128x8192_1_1_0_0_n_n.contr.Idx) :
    (dot_S128x64_S8192x64_S128x8192_1_1_0_0_n_n.lhsIdx i q 0).val = (i 0).val := by
  unfold DotDims.lhsIdx
  rw [dif_neg (show ¬(0 : Fin S128x64.rank) ∈ dot_S128x64_S8192x64_S128x8192_1_1_0_0_n_n.lhsBatch by decide),
    dif_pos (show (0 : Fin S128x64.rank) ∈ dot_S128x64_S8192x64_S128x8192_1_1_0_0_n_n.lhsNonContracting by decide)]
  rfl

theorem dot_lhs_contr (i : S128x8192.Idx) (q : dot_S128x64_S8192x64_S128x8192_1_1_0_0_n_n.contr.Idx) :
    (dot_S128x64_S8192x64_S128x8192_1_1_0_0_n_n.lhsIdx i q 1).val = (q ⟨0, by decide⟩).val :=
  dot_S128x64_S8192x64_S128x8192_1_1_0_0_n_n.lhsIdx_val_of_single rfl i q

theorem dot_rhs_row (i : S128x8192.Idx) (q : dot_S128x64_S8192x64_S128x8192_1_1_0_0_n_n.contr.Idx) :
    (dot_S128x64_S8192x64_S128x8192_1_1_0_0_n_n.rhsIdx i q 0).val = (i 1).val := by
  unfold DotDims.rhsIdx
  rw [dif_neg (show ¬(0 : Fin S8192x64.rank) ∈ dot_S128x64_S8192x64_S128x8192_1_1_0_0_n_n.rhsBatch by decide),
    dif_pos (show (0 : Fin S8192x64.rank) ∈ dot_S128x64_S8192x64_S128x8192_1_1_0_0_n_n.rhsNonContracting by decide)]
  rfl

theorem dot_rhs_contr (i : S128x8192.Idx) (q : dot_S128x64_S8192x64_S128x8192_1_1_0_0_n_n.contr.Idx) :
    (dot_S128x64_S8192x64_S128x8192_1_1_0_0_n_n.rhsIdx i q 1).val = (q ⟨0, by decide⟩).val :=
  dot_S128x64_S8192x64_S128x8192_1_1_0_0_n_n.rhsIdx_val_of_single rfl i q

/-- Entry (r, j) of the product accumulated into zero: the inner product of row r of the left operand and row j of
    the right one. -/
theorem scores_apply (x0 : FVec Ideal S128x64 .bf16) (x1 : FVec Ideal S8192x64 .bf16) (r : Fin 128) (j : Fin 8192) :
    matmul dot_S128x64_S8192x64_S128x8192_1_1_0_0_n_n none x0 x1 (constant S128x8192 .f32 0x00000000#32) (ix2 r j)
      = ∑ d : Fin 64, x0 (ix2 r d) * x1 (ix2 j d) := by
  simp only [matmul]
  rw [Ideal.matmul_constant_zero_apply,
    ← Equiv.sum_comp (ValueIdx.contrEquiv1 dot_S128x64_S8192x64_S128x8192_1_1_0_0_n_n 64 rfl rfl).symm]
  refine Finset.sum_congr rfl fun k _ => ?_
  have hk := ValueIdx.contrEquiv1_symm_val dot_S128x64_S8192x64_S128x8192_1_1_0_0_n_n 64 rfl rfl k
  have el : dot_S128x64_S8192x64_S128x8192_1_1_0_0_n_n.lhsIdx (ix2 r j)
      ((ValueIdx.contrEquiv1 dot_S128x64_S8192x64_S128x8192_1_1_0_0_n_n 64 rfl rfl).symm k) = ix2 r k :=
    funext fun a => Fin.ext (by
      match a with
      | ⟨0, _⟩ => exact dot_lhs_row _ _
      | ⟨1, _⟩ => exact (dot_lhs_contr _ _).trans hk)
  have er : dot_S128x64_S8192x64_S128x8192_1_1_0_0_n_n.rhsIdx (ix2 r j)
      ((ValueIdx.contrEquiv1 dot_S128x64_S8192x64_S128x8192_1_1_0_0_n_n 64 rfl rfl).symm k) = ix2 j k :=
    funext fun a => Fin.ext (by
      match a with
      | ⟨0, _⟩ => exact dot_rhs_row _ _
      | ⟨1, _⟩ => exact (dot_rhs_contr _ _).trans hk)
  rw [el, er]

/-! ## The pointwise scaling, the row maximum and the row sum, each read at (r, j) -/

/-- Ten times the scores, divided by a one-row block spread down the rows: column j is divided by entry j of the row. -/
theorem scaled_apply (s : FVec Ideal S128x8192 .f32) (x2 : FVec Ideal S1x8192 .f32) (r : Fin 128) (j : Fin 8192) :
    divf (mulf (broadcast S128x8192 (Scalar.ofBits .f32 0x41200000#32)) s)
        (broadcastTo S128x8192 x2 broadcasts_S1x8192_S128x8192) (ix2 r j)
      = Ideal.div (Cert.Attn.ten * s (ix2 r j)) (x2 (ix2 (0 : Fin 1) j)) := by
  rw [divf_apply, broadcastTo_1b_ab_apply]
  rfl

/-- The index of the source over row r whose column is k. -/
theorem lift_row (h : S128x8192.Reduces [1] S128) (r : Fin 128) (k : Fin 8192) :
    h.lift (ix1 r) k = ix2 r k :=
  funext fun c => Fin.ext (by
    match c with
    | ⟨0, _⟩ => rfl
    | ⟨1, _⟩ => rfl)

/-- The maximum along every row, kept as a column and spread back over the row: at (r, j), the maximum of row r
    started from -∞. -/
theorem rowMax_apply (a : FVec Ideal S128x8192 .f32) (hφ : FKind.Formats .f32)
    (hacc : (0xFF800000#32 : BitVec 32) = FKind.maximumf.neutral .f32 hφ) (r : Fin 128) (j : Fin 8192) :
    broadcastTo S128x8192
        (shapeCast S128x1 (multiReduction .maximumf [1] S128 a 0xFF800000#32 reduces_S128x8192_S128 hφ hacc)
          shapeCasts_S128_S128x1)
        broadcasts_S128x1_S128x8192 (ix2 r j)
      = Cert.Attn.maxOver fun j' : Fin 8192 => a (ix2 r j') := by
  rw [Cert.Lib.UnitAxis.broadcastTo_a1_ab_apply, Cert.Lib.UnitAxis.shapeCast_a_a1_apply]
  refine (Ideal.multiReduction_maximumf_single a 0xFF800000#32 reduces_S128x8192_S128 hφ hacc (ix1 r)).trans ?_
  unfold Cert.Attn.maxOver
  show (Finset.univ : Finset (Fin 8192)).fold max (Ideal.ofBits .f32 0xFF800000#32)
      (a ∘ reduces_S128x8192_S128.lift (ix1 r)) = _
  exact congrArg (fun f : Fin 8192 → EReal => (Finset.univ : Finset (Fin 8192)).fold max (Ideal.ofBits .f32 0xFF800000#32) f)
    (funext fun k => congrArg a (lift_row _ r k))

/-- The sum along every row, kept as a column and spread back over the row: at (r, j), the sum of row r. -/
theorem rowSum_apply (e : FVec Ideal S128x8192 .f32) (hφ : FKind.Formats .f32)
    (hacc : (0x00000000#32 : BitVec 32) = FKind.add.neutral .f32 hφ) (r : Fin 128) (j : Fin 8192) :
    broadcastTo S128x8192
        (shapeCast S128x1 (multiReduction .add [1] S128 e 0x00000000#32 reduces_S128x8192_S128 hφ hacc)
          shapeCasts_S128_S128x1)
        broadcasts_S128x1_S128x8192 (ix2 r j)
      = ∑ j' : Fin 8192, e (ix2 r j') := by
  rw [Cert.Lib.UnitAxis.broadcastTo_a1_ab_apply, Cert.Lib.UnitAxis.shapeCast_a_a1_apply]
  refine (Ideal.multiReduction_add_single e 0x00000000#32 reduces_S128x8192_S128 hφ hacc (ix1 r)).trans ?_
  show ∑ k : Fin 8192, e (reduces_S128x8192_S128.lift (ix1 r) k) = _
  exact Finset.sum_congr rfl fun k _ => congrArg e (lift_row _ r k)

/-! ## The softmax of a row of scaled scores -/

/-- The exponentials shifted by the row's maximum, read at (r, j). -/
theorem expShift_apply (a : FVec Ideal S128x8192 .f32) (hφ : FKind.Formats .f32)
    (hmax : (0xFF800000#32 : BitVec 32) = FKind.maximumf.neutral .f32 hφ) (r : Fin 128) (j : Fin 8192) :
    exp (subf a (broadcastTo S128x8192
        (shapeCast S128x1 (multiReduction .maximumf [1] S128 a 0xFF800000#32 reduces_S128x8192_S128 hφ hmax)
          shapeCasts_S128_S128x1)
        broadcasts_S128x1_S128x8192)) (ix2 r j)
      = Ideal.exp (a (ix2 r j) - Cert.Attn.maxOver fun j' : Fin 8192 => a (ix2 r j')) :=
  congrArg (fun m => Ideal.exp (a (ix2 r j) - m)) (rowMax_apply a hφ hmax r j)

/-- A vector divided by its row sums, read at (r, j). -/
theorem normalise_apply (e : FVec Ideal S128x8192 .f32) (hφ : FKind.Formats .f32)
    (hadd : (0x00000000#32 : BitVec 32) = FKind.add.neutral .f32 hφ) (r : Fin 128) (j : Fin 8192) :
    divf e (broadcastTo S128x8192
        (shapeCast S128x1 (multiReduction .add [1] S128 e 0x00000000#32 reduces_S128x8192_S128 hφ hadd)
          shapeCasts_S128_S128x1)
        broadcasts_S128x1_S128x8192) (ix2 r j)
      = Ideal.div (e (ix2 r j)) (∑ j' : Fin 8192, e (ix2 r j')) :=
  congrArg (fun z => Ideal.div (e (ix2 r j)) z) (rowSum_apply e hφ hadd r j)

/-- The last eleven operations on a matrix whose row r is a scaled row of scores: the softmax of that row. -/
theorem softmaxRow_apply (a : FVec Ideal S128x8192 .f32) (hφ : FKind.Formats .f32)
    (hmax : (0xFF800000#32 : BitVec 32) = FKind.maximumf.neutral .f32 hφ)
    (hadd : (0x00000000#32 : BitVec 32) = FKind.add.neutral .f32 hφ)
    (s R : Fin 8192 → EReal) (r : Fin 128)
    (ha : ∀ j' : Fin 8192, a (ix2 r j') = Cert.Attn.rowScaled s R j') (j : Fin 8192) :
    divf
        (exp (subf a (broadcastTo S128x8192
          (shapeCast S128x1 (multiReduction .maximumf [1] S128 a 0xFF800000#32 reduces_S128x8192_S128 hφ hmax)
            shapeCasts_S128_S128x1)
          broadcasts_S128x1_S128x8192)))
        (broadcastTo S128x8192
          (shapeCast S128x1
            (multiReduction .add [1] S128
              (exp (subf a (broadcastTo S128x8192
                (shapeCast S128x1 (multiReduction .maximumf [1] S128 a 0xFF800000#32 reduces_S128x8192_S128 hφ hmax)
                  shapeCasts_S128_S128x1)
                broadcasts_S128x1_S128x8192)))
              0x00000000#32 reduces_S128x8192_S128 hφ hadd)
            shapeCasts_S128_S128x1)
          broadcasts_S128x1_S128x8192) (ix2 r j)
      = Cert.Attn.rowOut s R j := by
  have hrow : (fun j' : Fin 8192 => a (ix2 r j')) = Cert.Attn.rowScaled s R := funext ha
  have hexp : ∀ j' : Fin 8192,
      exp (subf a (broadcastTo S128x8192
        (shapeCast S128x1 (multiReduction .maximumf [1] S128 a 0xFF800000#32 reduces_S128x8192_S128 hφ hmax)
          shapeCasts_S128_S128x1)
        broadcasts_S128x1_S128x8192)) (ix2 r j') = Cert.Attn.rowExp s R j' := fun j' => by
    refine (expShift_apply a hφ hmax r j').trans ?_
    rw [hrow, ha j']
    rfl
  refine (normalise_apply _ hφ hadd r j).trans ?_
  unfold Cert.Attn.rowOut
  rw [hexp j]
  exact congrArg _ (Finset.sum_congr rfl fun j' _ => hexp j')

/-- The second kernel's stored value at (r, j) of its block: the softmax, at column j, of the scaled scores of row r
    of the q block against every row of k, column j' divided by entry j' of the one-row divisor block. -/
theorem payload (x0 : Vec Ideal S128x64 .bf16) (x1 : Vec Ideal S8192x64 .bf16) (x2 : Vec Ideal S1x8192 .f32)
    (r : Fin 128) (j : Fin 8192) :
    k1_pay1 (F := Ideal) x0 x1 x2 (ix2 r j)
      = Cert.Attn.rowOut (fun j' : Fin 8192 => ∑ d : Fin 64, x0 (ix2 r d) * x1 (ix2 j' d))
          (fun j' : Fin 8192 => x2 (ix2 (0 : Fin 1) j')) j := by
  unfold k1_pay1
  simp only [shapeCast_self]
  refine softmaxRow_apply _ (.inl rfl) rfl rfl _ _ r (fun j' => ?_) j
  refine (scaled_apply _ x2 r j').trans ?_
  unfold Cert.Attn.rowScaled
  exact congrArg (fun t => Ideal.div (Cert.Attn.ten * t) (x2 (ix2 (0 : Fin 1) j'))) (scores_apply x0 x1 r j')

end Cert.KernelIdeal.Softmax

end
-- ==== Proof.SoftmaxArray.lean ====
import proofs.«153500_j28063316312444_1_alg».proof.Proof.Gen.KernelIdeal.Frame
import proofs.«153500_j28063316312444_1_alg».proof.Proof.SoftmaxBody
import proofs.«153500_j28063316312444_1_alg».proof.Proof.AttnSpec
import Idealize.ShloMosaic.Lib.Pipeline.Value
import Idealize.ShloMosaic.Lib.ValueIdx

set_option maxRecDepth 16384

noncomputable section

namespace Cert.KernelIdeal.Softmax

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The blocks of the second region, and the array they fill

The grid has 64 points. Point t reads rows t·128 … t·128 + 127 of q, all of k and the whole row of divisors, and
writes rows t·128 … t·128 + 127 of the result, all 8192 columns. Below: where each block sits, each input block read
at a coordinate, the stored block at a coordinate, what a point writes back, and the cover of the array by the 64
bands. -/

namespace Blocks

/-- The two zero offsets of a whole-buffer access, as the constant function. -/
theorem zeroOffsets : (![0, 0] : Fin 2 → Nat) = fun _ => 0 := funext fun a => by fin_cases a <;> rfl

/-- Where each window's block sits at grid point t, decided over the 64 points: the q block and the output block are
    the t-th band of 128 rows; the k block and the divisor block are their whole arrays. -/
theorem blockIndices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What the body stores at (r, j) of its output block, for any three input blocks: the stored block is the one
    whole-buffer store's payload, over the whole-buffer loads of the inputs. -/
theorem stored (x0 : Vec Ideal S128x64 .bf16) (x1 : Vec Ideal S8192x64 .bf16) (x2 : Vec Ideal S1x8192 .f32)
    (r : Fin 128) (j : Fin 8192) :
    out1_3 (F := Ideal) x0 x1 x2 (ix2 r j)
      = Cert.Attn.rowOut (fun j' : Fin 8192 => ∑ d : Fin 64, x0 (ix2 r d) * x1 (ix2 j' d))
          (fun j' : Fin 8192 => x2 (ix2 (0 : Fin 1) j')) j := by
  unfold out1_3
  rw [View.canon_unit_zero zeroOffsets]
  simp only [View.ld_unit_zero (S := S128x64) zeroOffsets, View.ld_unit_zero (S := S8192x64) zeroOffsets,
    View.ld_unit_zero (S := S1x8192) zeroOffsets]
  exact payload x0 x1 x2 r j

/-- The q block at point t is the t-th band of 128 rows of q. -/
theorem qBlock_apply (c : Dev nD) (t : Fin cfg1.N) (r : Fin 128) (d : Fin 64) (h : t.val * 128 + r.val < 8192) :
    (iblk1 V c 0 t : Vec Ideal S128x64 .bf16) (ix2 r d)
      = (V c main_v18 : S8192x64.Idx → EReal) (ix2 ⟨t.val * 128 + r.val, h⟩ d) := by
  obtain ⟨e0, e1, -⟩ := blockIndices t
  unfold iblk1
  rw [View.read_apply]
  show V c main_v18 _ = V c main_v18 _
  congr 1
  funext a
  apply Fin.ext
  match a with
  | ⟨0, _⟩ => show win1_0.index t (0 : Fin 2) * 128 + 1 * r.val = t.val * 128 + r.val; rw [e0]; omega
  | ⟨1, _⟩ => show win1_0.index t (1 : Fin 2) * 64 + 1 * d.val = d.val; rw [e1]; omega

/-- The k block at every point is all of k. -/
theorem kBlock_apply (c : Dev nD) (t : Fin cfg1.N) (j : Fin 8192) (d : Fin 64) :
    (iblk1 V c 1 t : Vec Ideal S8192x64 .bf16) (ix2 j d) = (V c main_v19 : S8192x64.Idx → EReal) (ix2 j d) := by
  obtain ⟨-, -, e0, e1, -⟩ := blockIndices t
  unfold iblk1
  rw [View.read_apply]
  show V c main_v19 _ = V c main_v19 _
  congr 1
  funext a
  apply Fin.ext
  match a with
  | ⟨0, _⟩ => show win1_1.index t (0 : Fin 2) * 8192 + 1 * j.val = j.val; rw [e0]; omega
  | ⟨1, _⟩ => show win1_1.index t (1 : Fin 2) * 64 + 1 * d.val = d.val; rw [e1]; omega

/-- The divisor block at every point is the whole one-row array of divisors. -/
theorem divisorBlock_apply (c : Dev nD) (t : Fin cfg1.N) (u : Fin 1) (j : Fin 8192) :
    (iblk1 V c 2 t : Vec Ideal S1x8192 .f32) (ix2 u j) = (V c main_v21 : S1x8192.Idx → EReal) (ix2 u j) := by
  obtain ⟨-, -, -, -, e0, e1, -⟩ := blockIndices t
  unfold iblk1
  rw [View.read_apply]
  show V c main_v21 _ = V c main_v21 _
  congr 1
  funext a
  apply Fin.ext
  match a with
  | ⟨0, _⟩ => show win1_2.index t (0 : Fin 2) * 1 + 1 * u.val = u.val; rw [e0]; omega
  | ⟨1, _⟩ => show win1_2.index t (1 : Fin 2) * 8192 + 1 * j.val = j.val; rw [e1]; omega

/-- The array the second region leaves: at (i, j) the softmax over row i of the scaled scores. -/
abbrev result (c : Dev nD) : S8192x8192.Idx → EReal :=
  fun i => Cert.Attn.out3 (V c main_v18) (V c main_v19) (fun j' : Fin 8192 => V c main_v21 (ix2 (0 : Fin 1) j'))
    ⟨(i 0).val, (i 0).isLt⟩ ⟨(i 1).val, (i 1).isLt⟩

/-- The stored value at (r, j) as the result at (i, j), for any input blocks that read, on row r of the first, all of
    the second and the one row of the third, what q holds on row i, k holds, and the divisors are. -/
theorem stored_of_reads (x0 : Vec Ideal S128x64 .bf16) (x1 : Vec Ideal S8192x64 .bf16) (x2 : Vec Ideal S1x8192 .f32)
    (q k : Cert.Attn.SQK.Idx → EReal) (R : Fin 8192 → EReal) (r : Fin 128) (i j : Fin 8192)
    (h0 : ∀ d : Fin 64, x0 (ix2 r d) = q (ix2 i d)) (h1 : ∀ (j' : Fin 8192) (d : Fin 64), x1 (ix2 j' d) = k (ix2 j' d))
    (h2 : ∀ j' : Fin 8192, x2 (ix2 (0 : Fin 1) j') = R j') :
    out1_3 (F := Ideal) x0 x1 x2 (ix2 r j) = Cert.Attn.out3 q k R i j := by
  refine (stored x0 x1 x2 r j).trans ?_
  have hs : (fun j' : Fin 8192 => ∑ d : Fin 64, x0 (ix2 r d) * x1 (ix2 j' d)) = Cert.Attn.score q k i := by
    funext j'
    unfold Cert.Attn.score
    exact Finset.sum_congr rfl fun d _ => by rw [h0 d, h1 j' d]
  have hR : (fun j' : Fin 8192 => x2 (ix2 (0 : Fin 1) j')) = R := funext h2
  rw [hs, hR]
  rfl

/-- The body's stored value at (r, j) of the block of point t is the result at row t·128 + r, column j: the scores of
    the block's row r are those of q's row t·128 + r against all of k, and the divisors are the whole row of divisors. -/
theorem stored_block (c : Dev nD) (t : Fin cfg1.N) (r : Fin 128) (j : Fin 8192) (h : t.val * 128 + r.val < 8192) :
    out1_3 (F := Ideal) (iblk1 V c 0 t) (iblk1 V c 1 t) (iblk1 V c 2 t) (ix2 r j)
      = Cert.Attn.out3 (V c main_v18) (V c main_v19) (fun j' : Fin 8192 => V c main_v21 (ix2 (0 : Fin 1) j'))
          ⟨t.val * 128 + r.val, h⟩ j :=
  stored_of_reads _ _ _ (V c main_v18) (V c main_v19) _ r ⟨t.val * 128 + r.val, h⟩ j
    (fun d => qBlock_apply V c t r d h) (fun j' d => kBlock_apply V c t j' d)
    (fun j' => divisorBlock_apply V c t 0 j')

/-- What point t writes back is block t of the result. -/
theorem flushed_eq (c : Dev nD) (t : Fin cfg1.N) :
    (dat1 (F := Ideal) V c).flushed 3 t = ((cfg1.win 3).blk t).view.read (Elt Ideal) (result V c) := by
  show (cfg1.win 3).cut (grid1.coords t) ((dat1 (F := Ideal) V c).after 3 t) = _
  rw [after1_3]
  obtain ⟨-, -, -, -, -, -, e0, e1⟩ := blockIndices t
  have hN : cfg1.N = 64 := N_1
  have ht : t.val < 64 := hN ▸ t.isLt
  funext y
  have hr : (y 0).val < 128 := (y 0).isLt
  have hc : (y 1).val < 8192 := (y 1).isLt
  have hrow : t.val * 128 + (y 0).val < 8192 := by omega
  have hin : (cfg1.win 3).xinj (grid1.coords t) y = ix2 (⟨(y 0).val, hr⟩ : Fin 128) (⟨(y 1).val, hc⟩ : Fin 8192) := by
    funext a
    match a with
    | ⟨0, _⟩ => rfl
    | ⟨1, _⟩ => rfl
  have hemb : ((cfg1.win 3).blk t).view.emb y
      = (ix2 (⟨t.val * 128 + (y 0).val, hrow⟩ : Fin 8192) (⟨(y 1).val, hc⟩ : Fin 8192) : S8192x8192.Idx) := by
    funext a
    apply Fin.ext
    match a with
    | ⟨0, _⟩ => show win1_3.index t (0 : Fin 2) * 128 + 1 * (y 0).val = t.val * 128 + (y 0).val; rw [e0]; omega
    | ⟨1, _⟩ => show win1_3.index t (1 : Fin 2) * 8192 + 1 * (y 1).val = (y 1).val; rw [e1]; omega
  show out1_3 (F := Ideal) (iblk1 V c 0 t) (iblk1 V c 1 t) (iblk1 V c 2 t) ((cfg1.win 3).xinj (grid1.coords t) y)
    = result V c (((cfg1.win 3).blk t).view.emb y)
  rw [hin, hemb]
  exact stored_block V c t ⟨(y 0).val, hr⟩ ⟨(y 1).val, hc⟩ hrow

/-- An index of the array is in point t's block iff each coordinate is in the block's range on its axis. -/
theorem mem_block (t : Fin cfg1.N) (i : S8192x8192.Idx) :
    i ∈ ((cfg1.win 3).blk t).view.set ↔ ∀ a : Fin 2, win1_3.index t a * S128x8192.size a ≤ (i a).val
      ∧ (i a).val < win1_3.index t a * S128x8192.size a + S128x8192.size a := by
  show i ∈ ((View.whole main_v22).slice (win1_3.rect t)).set ↔ _
  rw [View.set_slice_whole, Rect.mem_set_unit]
  exact Iff.rfl

/-- The 64 bands of 128 rows fill the array: row i lies in the band of point i / 128. -/
theorem covered (i : S8192x8192.Idx) :
    ∃ t : Fin cfg1.N, (cfg1.win 3).flush t = true ∧ i ∈ ((cfg1.win 3).blk t).view.set := by
  have h0 : (i 0).val < 8192 := (i 0).isLt
  have h1 : (i 1).val < 8192 := (i 1).isLt
  have hN : cfg1.N = 64 := N_1
  have hlt : (i 0).val / 128 < cfg1.N := by rw [hN]; omega
  obtain ⟨-, -, -, -, -, -, e0, e1⟩ := blockIndices ⟨(i 0).val / 128, hlt⟩
  refine ⟨⟨(i 0).val / 128, hlt⟩, flush1_3 _, ?_⟩
  rw [mem_block]
  intro a
  match a with
  | ⟨0, _⟩ =>
    show win1_3.index ⟨(i 0).val / 128, hlt⟩ (0 : Fin 2) * 128 ≤ (i 0).val
      ∧ (i 0).val < win1_3.index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show win1_3.index ⟨(i 0).val / 128, hlt⟩ (1 : Fin 2) * 8192 ≤ (i 1).val
      ∧ (i 1).val < win1_3.index ⟨(i 0).val / 128, hlt⟩ (1 : Fin 2) * 8192 + 8192
    rw [e1]
    omega

end Blocks

/-- After the second region, its output array holds at (i, j) the softmax over row i of the scaled scores, column j'
    divided by entry j' of the one-row array of divisors the region found, whatever q, k and divisors it found. -/
theorem final (c : Dev nD) :
    (dat1 (F := Ideal) V c).arrAt 3 cfg1.N
      = fun i : S8192x8192.Idx => Cert.Attn.out3 (V c main_v18) (V c main_v19)
          (fun j' : Fin 8192 => V c main_v21 (ix2 (0 : Fin 1) j')) ⟨(i 0).val, (i 0).isLt⟩ ⟨(i 1).val, (i 1).isLt⟩ :=
  (dat1 (F := Ideal) V c).arrAt_eq_of_cover 3 (Blocks.result V c) (fun t _ => Blocks.flushed_eq V c t) Blocks.covered

end Cert.KernelIdeal.Softmax

end
-- ==== Proof.KernelValue.lean ====
/-
  What the kernel program's result array holds after its run, as one function of the argument arrays.

  The host computes q and k by the same two-layer perceptron (a matrix product, a bias, a clamp at zero, a second
  matrix product and bias) and rounds both to bf16, which on the extended reals changes nothing. The first region
  leaves in its output array the largest score of every row; the host relabels that column as a row; the second region
  divides column j of the scaled scores by entry j of that row and takes the softmax of every row. Neither region
  changes the arrays it only reads, so both regions see the same q and k, and the result is the specification's
  `out q k`.
-/
import proofs.«153500_j28063316312444_1_alg».proof.Proof.KernelRun
import proofs.«153500_j28063316312444_1_alg».proof.Proof.RowMaxArray
import proofs.«153500_j28063316312444_1_alg».proof.Proof.SoftmaxArray
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

section Host

variable {F : FTy → Type} [FloatOps F]

/-- The host's two-layer perceptron: (relu (x·W1 + b1))·W2 + b2, each bias spread over the 8192 rows. -/
def mlp (x : (⟨S8192x129, .f32⟩ : BufTy).Contents (Elt F)) (W1 : (⟨S129x64, .f32⟩ : BufTy).Contents (Elt F))
    (b1 : (⟨S64, .f32⟩ : BufTy).Contents (Elt F)) (W2 : (⟨S64x64, .f32⟩ : BufTy).Contents (Elt F))
    (b2 : (⟨S64, .f32⟩ : BufTy).Contents (Elt F)) : (⟨S8192x64, .f32⟩ : BufTy).Contents (Elt F) :=
  addf
    (Host.dotGeneral dot_S8192x64_S64x64_S8192x64_1_0_0_1_n_n none
      (maximumf
        (addf (Host.dotGeneral dot_S8192x129_S129x64_S8192x64_1_0_0_1_n_n none x W1)
          (broadcastInDim S8192x64 ![0, 1] bcast_S1x64_S8192x64_0_1 (broadcastInDim S1x64 ![1] bcast_S64_S1x64_1 b1)))
        (broadcastInDim S8192x64 ![] bcast_S_S8192x64 (constant S_ .f32 0x00000000#32)))
      W2)
    (broadcastInDim S8192x64 ![0, 1] bcast_S1x64_S8192x64_0_1 (broadcastInDim S1x64 ![1] bcast_S64_S1x64_1 b2))

variable (m : (ℓ : Loc nD τ sig) → Buf (Elt F) ℓ) (ρ : Dev nD → PrngReg)

/-- q as the first region finds it: the perceptron of x with the first four parameters, rounded to bf16. -/
theorem entry_q (c : Dev nD) :
    V5 m ρ c main_v18 = truncf .bf16 (mlp (m ((c : Thread nD τ).loc main_arg0)) (m ((c : Thread nD τ).loc main_arg1))
      (m ((c : Thread nD τ).loc main_arg2)) (m ((c : Thread nD τ).loc main_arg3)) (m ((c : Thread nD τ).loc main_arg4))) bitsLt_bf16_f32 := by
  show W5 m ρ c (Proc.devRef .tc main_v18) = _
  dsimp only [W5, W4, W3, W2, W1, W0, hostOps0, hostOps0_1, hostOps0_2, hostOps0_3, hostOps0_4]
  after_results
  rfl

set_option maxHeartbeats 2000000 in
/-- k as the first region finds it: the same perceptron of x with the last four parameters, rounded to bf16. -/
theorem entry_k (c : Dev nD) :
    V5 m ρ c main_v19 = truncf .bf16 (mlp (m ((c : Thread nD τ).loc main_arg0)) (m ((c : Thread nD τ).loc main_arg5))
      (m ((c : Thread nD τ).loc main_arg6)) (m ((c : Thread nD τ).loc main_arg7)) (m ((c : Thread nD τ).loc main_arg8))) bitsLt_bf16_f32 := by
  show W5 m ρ c (Proc.devRef .tc main_v19) = _
  dsimp only [W5, W4, W3, W2, W1, W0, hostOps0, hostOps0_1, hostOps0_2, hostOps0_3, hostOps0_4]
  after_results
  rfl

/-- The first region only reads q, and the relabelling between the regions does not touch it: the second region
    finds the q the first one found. -/
theorem second_q (c : Dev nD) : V7 m ρ c main_v18 = V5 m ρ c main_v18 := by
  have h : W7 m ρ c (Proc.devRef .tc main_v18) = W6 m ρ c (Proc.devRef .tc main_v18) := by
    dsimp only [W7, hostOps1]
    after_results
  show W7 m ρ c (Proc.devRef .tc main_v18) = _
  rw [h]
  exact (W6_arr m ρ c 0).trans (((dat0 (V5 m ρ) c).arrAt_in 0 rfl cfg0.N).trans (A_eq0 (V5 m ρ) c 0))

/-- Likewise for k. -/
theorem second_k (c : Dev nD) : V7 m ρ c main_v19 = V5 m ρ c main_v19 := by
  have h : W7 m ρ c (Proc.devRef .tc main_v19) = W6 m ρ c (Proc.devRef .tc main_v19) := by
    dsimp only [W7, hostOps1]
    after_results
  show W7 m ρ c (Proc.devRef .tc main_v19) = _
  rw [h]
  exact (W6_arr m ρ c 1).trans (((dat0 (V5 m ρ) c).arrAt_in 1 rfl cfg0.N).trans (A_eq0 (V5 m ρ) c 1))

/-- The row of divisors the second region finds is the first region's output column, relabelled: entry (0, j) of
    the row is entry (j, 0) of the column (both sit at row-major position j). -/
theorem second_divisors (c : Dev nD) (j : Fin 8192) :
    V7 m ρ c main_v21 (ix2 (0 : Fin 1) j) = (dat0 (V5 m ρ) c).arrAt 2 cfg0.N (ix2 j (0 : Fin 1)) := by
  show W7 m ρ c (Proc.devRef .tc main_v21) (ix2 (0 : Fin 1) j) = _
  dsimp only [W7, hostOps1]
  after_results
  rw [← W6_arr m ρ c 2]
  show shapeCast S1x8192 (W6 m ρ c (Proc.devRef .tc main_v20)) shapeCasts_S8192x1_S1x8192 (ix2 (0 : Fin 1) j)
    = W6 m ρ c (Proc.devRef .tc main_v20) (ix2 j (0 : Fin 1))
  exact shapeCast_apply _ _ _ _ (by
    show (S8192x1.rowMajor (ix2 j (0 : Fin 1))).val = (S1x8192.rowMajor (ix2 (0 : Fin 1) j)).val
    rw [Shape.rowMajor_val_two, Shape.rowMajor_val_two]
    show j.val * 1 + 0 = 0 * 8192 + j.val
    omega)

end Host

section Ideal

variable (m : (ℓ : Loc nD τ sig) → Buf (Elt Ideal) ℓ) (ρ : Dev nD → PrngReg)

/-- On the extended reals rounding to bf16 is the identity. -/
theorem truncf_bf16_id (x : FVec Ideal S8192x64 .f32) :
    truncf (F := Ideal) .bf16 x bitsLt_bf16_f32 = (x : S8192x64.Idx → EReal) := rfl

/-- q and k as functions of the launch memory. -/
abbrev qOf (c : Dev nD) : S8192x64.Idx → EReal :=
  mlp (F := Ideal) (m ((c : Thread nD τ).loc main_arg0)) (m ((c : Thread nD τ).loc main_arg1))
    (m ((c : Thread nD τ).loc main_arg2)) (m ((c : Thread nD τ).loc main_arg3)) (m ((c : Thread nD τ).loc main_arg4))
abbrev kOf (c : Dev nD) : S8192x64.Idx → EReal :=
  mlp (F := Ideal) (m ((c : Thread nD τ).loc main_arg0)) (m ((c : Thread nD τ).loc main_arg5))
    (m ((c : Thread nD τ).loc main_arg6)) (m ((c : Thread nD τ).loc main_arg7)) (m ((c : Thread nD τ).loc main_arg8))

/-- The result array after the run: the specification's `out` of q and k. -/
theorem result (c : Dev nD) :
    W8 m ρ c (Proc.devRef .tc main_v22)
      = fun i : S8192x8192.Idx => Cert.Attn.out (qOf m c) (kOf m c) ⟨(i 0).val, (i 0).isLt⟩ ⟨(i 1).val, (i 1).isLt⟩ := by
  have hq : V7 m ρ c main_v18 = qOf m c := (second_q m ρ c).trans ((entry_q m ρ c).trans (truncf_bf16_id _))
  have hk : V7 m ρ c main_v19 = kOf m c := (second_k m ρ c).trans ((entry_k m ρ c).trans (truncf_bf16_id _))
  have hR : (fun j' : Fin 8192 => V7 m ρ c main_v21 (ix2 (0 : Fin 1) j')) = Cert.Attn.rowMax (qOf m c) (kOf m c) := by
    funext j
    rw [second_divisors m ρ c j, Cert.KernelIdeal.RowMax.final (V5 m ρ) c]
    show Cert.Attn.rowMax (V5 m ρ c main_v18) (V5 m ρ c main_v19) j = _
    rw [(entry_q m ρ c).trans (truncf_bf16_id _), (entry_k m ρ c).trans (truncf_bf16_id _)]
  refine (W8_arr m ρ c 3).trans ?_
  rw [Cert.KernelIdeal.Softmax.final (V7 m ρ) c, hq, hk, hR]
  rfl

/-- The run, with the result array at the specification's value and the arguments as launched. -/
theorem run : θ_run defs (onTc (τ := τ) (main (F := Ideal))) ⟨m, fun _ => 0, ρ⟩ (fun r => ∀ c : Dev nD,
      r.2.mem ((c.tc : Thread nD τ).loc main_v22)
        = (fun i : S8192x8192.Idx => Cert.Attn.out (qOf m c) (kOf m c) ⟨(i 0).val, (i 0).isLt⟩ ⟨(i 1).val, (i 1).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (Cert.KernelIdeal.Run.run_main m ρ)

end Ideal

end Cert.KernelIdeal.Result

end
-- ==== Proof.RefSide.lean ====
/-
  The reference program, read stage by stage at an index, is the specification of AttnSpec.

  From its two projected matrices q and k (kept opaque: whatever its own earlier operations compute) the reference forms
  the scores s[i,j] = ∑_d q[i,d]·k[j,d] (a product with the transposed k), reduces every row of s with max from -∞,
  spreads that vector along the COLUMNS (entry j of every row is divided by the maximum of row j), and takes the softmax
  of every row of the quotient: row maximum (again from -∞, and once more joined with -∞, which changes nothing),
  exponential of the difference, row sum from 0, quotient. Each lemma below reads one of these stages at coordinates
  (a, b) and names the specification's function it equals; the last one is the result.
-/
import proofs.«153500_j28063316312444_1_alg».proof.Proof.Gen.ReferenceIdeal.Read
import proofs.«153500_j28063316312444_1_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Read Idealize.ShloMosaic Idealize.ShloMosaic.ValueIdx

/-- A maximum-reduction of an 8192 × 8192 array along its second axis, started from the word of -∞, is at row a the
    maximum of that row's entries from -∞: the reduction is a fold of max over the reduced axis's coordinates, and the
    index with coordinate b inserted is (a, b). -/
theorem reduce_max_row (y : (⟨S8192x8192, .f32⟩ : BufTy).Contents (Elt Ideal)) (h' : S8192x8192.ReducesTo [1] S8192)
    (hu : 0 < S_.numel) (a : Fin 8192) :
    Host.reduce FloatOps.maximumf y (constant (F := Ideal) S_ .f32 0xFF800000#32) h' hu (ix1 a)
      = Cert.Attn.maxOver (fun b => y (ix2 a b)) := by
  have h : S8192x8192.Reduces [1] S8192 := by decide
  have key := Host.reduce_eq_fold_single (FloatOps.maximumf (F := Ideal) (φ := .f32)) y
    (constant (F := Ideal) S_ .f32 0xFF800000#32) h' h hu (ix1 a)
  refine key.trans ?_
  show (Finset.univ : Finset (Fin 8192)).fold max Cert.Attn.negInf (y ∘ h.lift (ix1 a)) = _
  unfold Cert.Attn.maxOver
  refine Finset.fold_congr fun b _ => ?_
  exact congrArg y (funext fun c => Fin.ext (by match c with | ⟨0, _⟩ => rfl | ⟨1, _⟩ => rfl))

section Stages
variable (x0 : (⟨S8192x129, .f32⟩ : BufTy).Contents (Elt Ideal)) (x1 : (⟨S129x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S129x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal))

/-- The scores: the product of q with the transposed k, at (a, b), is the inner product of row a of q and row b of k. -/
theorem scores_apply (a b : Fin 8192) :
    val_main_v19 (F := Ideal) x0 x1 x2 x3 x4 x5 x6 x7 x8 (ix2 a b) = Cert.Attn.score (val_main_v8 (F := Ideal) x0 x1 x2 x3 x4) (val_main_v17 (F := Ideal) x0 x5 x6 x7 x8) a b := by
  rw [val_main_v19_apply]
  unfold Cert.Attn.score
  refine Finset.sum_congr rfl fun d _ => ?_
  rw [val_main_v18_apply]
  generalize val_main_v8 (F := Ideal) x0 x1 x2 x3 x4 = Q
  generalize val_main_v17 (F := Ideal) x0 x5 x6 x7 x8 = K
  have e1 : lidx_main_v19 (ix2 a b) d = ix2 a d := funext fun c => Fin.ext (by match c with | ⟨0, _⟩ => rfl | ⟨1, _⟩ => rfl)
  have e2 : idx_main_v18 (ridx_main_v19 (ix2 a b) d) = ix2 b d := funext fun c => Fin.ext (by match c with | ⟨0, _⟩ => rfl | ⟨1, _⟩ => rfl)
  rw [e1, e2]

/-- The first reduction: entry a is the largest score of row a. -/
theorem rowMax_apply (a : Fin 8192) :
    val_main_v20 (F := Ideal) x0 x1 x2 x3 x4 x5 x6 x7 x8 (ix1 a) = Cert.Attn.rowMax (val_main_v8 (F := Ideal) x0 x1 x2 x3 x4) (val_main_v17 (F := Ideal) x0 x5 x6 x7 x8) a := by
  unfold val_main_v20 val_main_cst Cert.Attn.rowMax
  refine (reduce_max_row _ _ _ a).trans ?_
  exact congrArg Cert.Attn.maxOver (funext fun b => scores_apply x0 x1 x2 x3 x4 x5 x6 x7 x8 a b)

/-- The scaled scores: 10·s[a,b] divided by the maximum of row b (the vector of maxima is laid along the columns). -/
theorem scaled_apply (a b : Fin 8192) :
    val_main_v25 (F := Ideal) x0 x1 x2 x3 x4 x5 x6 x7 x8 (ix2 a b)
      = Cert.Attn.rowScaled (Cert.Attn.score (val_main_v8 (F := Ideal) x0 x1 x2 x3 x4) (val_main_v17 (F := Ideal) x0 x5 x6 x7 x8) a) (Cert.Attn.rowMax (val_main_v8 (F := Ideal) x0 x1 x2 x3 x4) (val_main_v17 (F := Ideal) x0 x5 x6 x7 x8)) b := by
  rw [val_main_v25_apply, val_main_v22_apply, val_main_v21_apply, val_main_cst_0_apply, val_main_v24_apply, val_main_v23_apply]
  have e : idx_main_v23 (idx_main_v24 (ix2 a b)) = ix1 b := funext fun c => Fin.ext (by match c with | ⟨0, _⟩ => rfl)
  rw [e, scores_apply, rowMax_apply]
  rfl

/-- The second reduction: entry a is the largest scaled score of row a. -/
theorem scaledMax_apply (a : Fin 8192) :
    val_main_v26 (F := Ideal) x0 x1 x2 x3 x4 x5 x6 x7 x8 (ix1 a)
      = Cert.Attn.maxOver (Cert.Attn.rowScaled (Cert.Attn.score (val_main_v8 (F := Ideal) x0 x1 x2 x3 x4) (val_main_v17 (F := Ideal) x0 x5 x6 x7 x8) a) (Cert.Attn.rowMax (val_main_v8 (F := Ideal) x0 x1 x2 x3 x4) (val_main_v17 (F := Ideal) x0 x5 x6 x7 x8))) := by
  unfold val_main_v26 val_main_cst_1
  refine (reduce_max_row _ _ _ a).trans ?_
  exact congrArg Cert.Attn.maxOver (funext fun b => scaled_apply x0 x1 x2 x3 x4 x5 x6 x7 x8 a b)

/-- Joined once more with -∞, the row maximum is unchanged. -/
theorem scaledMax'_apply (a : Fin 8192) :
    val_main_v28 (F := Ideal) x0 x1 x2 x3 x4 x5 x6 x7 x8 (ix1 a)
      = Cert.Attn.maxOver (Cert.Attn.rowScaled (Cert.Attn.score (val_main_v8 (F := Ideal) x0 x1 x2 x3 x4) (val_main_v17 (F := Ideal) x0 x5 x6 x7 x8) a) (Cert.Attn.rowMax (val_main_v8 (F := Ideal) x0 x1 x2 x3 x4) (val_main_v17 (F := Ideal) x0 x5 x6 x7 x8))) := by
  rw [val_main_v28_apply, val_main_v27_apply, val_main_cst_2_apply, scaledMax_apply]
  exact Cert.Attn.max_negInf_maxOver _

/-- The exponentials: exp of the scaled score minus its row's maximum. -/
theorem exp_apply (a b : Fin 8192) :
    val_main_v32 (F := Ideal) x0 x1 x2 x3 x4 x5 x6 x7 x8 (ix2 a b)
      = Cert.Attn.rowExp (Cert.Attn.score (val_main_v8 (F := Ideal) x0 x1 x2 x3 x4) (val_main_v17 (F := Ideal) x0 x5 x6 x7 x8) a) (Cert.Attn.rowMax (val_main_v8 (F := Ideal) x0 x1 x2 x3 x4) (val_main_v17 (F := Ideal) x0 x5 x6 x7 x8)) b := by
  rw [val_main_v32_apply, val_main_v31_apply, val_main_v30_apply, val_main_v29_apply]
  have e : idx_main_v29 (idx_main_v30 (ix2 a b)) = ix1 a := funext fun c => Fin.ext (by match c with | ⟨0, _⟩ => rfl)
  rw [e, scaled_apply, scaledMax'_apply]
  rfl

/-- The row sums of the exponentials: the sum starts from the zero word, which is 0. -/
theorem expSum_apply (a : Fin 8192) :
    val_main_v33 (F := Ideal) x0 x1 x2 x3 x4 x5 x6 x7 x8 (ix1 a)
      = ∑ j' : Fin 8192, Cert.Attn.rowExp (Cert.Attn.score (val_main_v8 (F := Ideal) x0 x1 x2 x3 x4) (val_main_v17 (F := Ideal) x0 x5 x6 x7 x8) a) (Cert.Attn.rowMax (val_main_v8 (F := Ideal) x0 x1 x2 x3 x4) (val_main_v17 (F := Ideal) x0 x5 x6 x7 x8)) j' := by
  rw [val_main_v33_apply, val_main_cst_3_apply, Ideal.ofBits_def, Ideal.ofBits_zero_f32, zero_add]
  refine Finset.sum_congr rfl fun k _ => ?_
  have e : idx_main_v33 (ix1 a) k = ix2 a k := funext fun c => Fin.ext (by match c with | ⟨0, _⟩ => rfl | ⟨1, _⟩ => rfl)
  rw [e, exp_apply]

/-- The result: each exponential divided by its row's sum. -/
theorem out_apply (a b : Fin 8192) :
    val_main_v36 (F := Ideal) x0 x1 x2 x3 x4 x5 x6 x7 x8 (ix2 a b) = Cert.Attn.out (val_main_v8 (F := Ideal) x0 x1 x2 x3 x4) (val_main_v17 (F := Ideal) x0 x5 x6 x7 x8) a b := by
  rw [val_main_v36_apply, val_main_v35_apply, val_main_v34_apply]
  have e : idx_main_v34 (idx_main_v35 (ix2 a b)) = ix1 a := funext fun c => Fin.ext (by match c with | ⟨0, _⟩ => rfl)
  rw [e, exp_apply, expSum_apply]
  rfl

end Stages

/-- The reference's result at (i, j) is the specification's, of the q and k its own host operations compute. -/
theorem result_apply (x0 : (⟨S8192x129, .f32⟩ : BufTy).Contents (Elt Ideal)) (x1 : (⟨S129x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S129x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (i : S8192x8192.Idx) :
    val_main_v36 (F := Ideal) x0 x1 x2 x3 x4 x5 x6 x7 x8 i
      = Cert.Attn.out (val_main_v8 (F := Ideal) x0 x1 x2 x3 x4) (val_main_v17 (F := Ideal) x0 x5 x6 x7 x8)
          ⟨(i 0).val, (i 0).isLt⟩ ⟨(i 1).val, (i 1).isLt⟩ := by
  have hi : i = ix2 (⟨(i 0).val, (i 0).isLt⟩ : Fin 8192) (⟨(i 1).val, (i 1).isLt⟩ : Fin 8192) :=
    funext fun c => by match c with | ⟨0, _⟩ => rfl | ⟨1, _⟩ => rfl
  exact (congrArg (val_main_v36 (F := Ideal) x0 x1 x2 x3 x4 x5 x6 x7 x8) hi).trans (out_apply x0 x1 x2 x3 x4 x5 x6 x7 x8 _ _)

end Cert.ReferenceIdeal.RefValue

end
-- ==== Proof.lean ====
/-
  The certificate: the kernel program, its idealization and the idealized reference all run to the end without a fault
  and leave their arguments unchanged; the idealization rewrote no operation; and, run from memories that agree on the
  nine arguments, the idealized kernel and the idealized reference end with the same result on the extended reals.

  Both compute q and k by one host perceptron; both take the scores q·kᵀ, divide column j of ten times the scores by the
  largest score of ROW j, and take the softmax of every row. The kernel does it in two passes over row blocks — the row
  maxima first, then the softmax with the maxima laid out as one row — and the reference in whole-matrix operations; a
  maximum started from -∞ and a sum do not depend on how the rows are cut into blocks, so the two results are one
  function of q and k (`Cert.Attn.out`), index by index. No law that needs finiteness is used: the precondition is
  never opened.
-/
import proofs.«153500_j28063316312444_1_alg».proof.Defs
import proofs.«153500_j28063316312444_1_alg».proof.Proof.Gen.Kernel
import proofs.«153500_j28063316312444_1_alg».proof.Proof.Gen.Kernel.Skeleton
import proofs.«153500_j28063316312444_1_alg».proof.Proof.Gen.Kernel.Launch
import proofs.«153500_j28063316312444_1_alg».proof.Proof.Gen.Kernel.Points
import proofs.«153500_j28063316312444_1_alg».proof.Proof.Gen.Kernel.Frame
import proofs.«153500_j28063316312444_1_alg».proof.Proof.Gen.KernelIdeal
import proofs.«153500_j28063316312444_1_alg».proof.Proof.Gen.KernelIdeal.Skeleton
import proofs.«153500_j28063316312444_1_alg».proof.Proof.Gen.KernelIdeal.Launch
import proofs.«153500_j28063316312444_1_alg».proof.Proof.Gen.KernelIdeal.Points
import proofs.«153500_j28063316312444_1_alg».proof.Proof.Gen.KernelIdeal.Frame
import proofs.«153500_j28063316312444_1_alg».proof.Proof.Gen.ReferenceIdeal
import proofs.«153500_j28063316312444_1_alg».proof.Proof.Gen.ReferenceIdeal.Run
import proofs.«153500_j28063316312444_1_alg».proof.Proof.Gen.ReferenceIdeal.Read
import proofs.«153500_j28063316312444_1_alg».proof.Proof.Gen.Pre_finite_inputs
import proofs.«153500_j28063316312444_1_alg».proof.Proof.KernelValue
import proofs.«153500_j28063316312444_1_alg».proof.Proof.RefSide
import Idealize.ShloMosaic.Adequacy
import Idealize.ShloMosaic.Init

noncomputable section

namespace Cert.Proof

open Idealize.ShloMosaic Idealize.SL.Sem

/-- The kernel program's host perceptron and the reference's stages up to q are one function of the arguments. -/
theorem perceptron_q (a0 : (⟨Cert.KernelIdeal.S8192x129, .f32⟩ : BufTy).Contents (Elt Ideal))
    (a1 : (⟨Cert.KernelIdeal.S129x64, .f32⟩ : BufTy).Contents (Elt Ideal)) (a2 : (⟨Cert.KernelIdeal.S64, .f32⟩ : BufTy).Contents (Elt Ideal))
    (a3 : (⟨Cert.KernelIdeal.S64x64, .f32⟩ : BufTy).Contents (Elt Ideal)) (a4 : (⟨Cert.KernelIdeal.S64, .f32⟩ : BufTy).Contents (Elt Ideal)) :
    Cert.ReferenceIdeal.Read.val_main_v8 (F := Ideal) a0 a1 a2 a3 a4 = Cert.KernelIdeal.Result.mlp (F := Ideal) a0 a1 a2 a3 a4 := rfl

/-- Likewise up to k. -/
theorem perceptron_k (a0 : (⟨Cert.KernelIdeal.S8192x129, .f32⟩ : BufTy).Contents (Elt Ideal))
    (a5 : (⟨Cert.KernelIdeal.S129x64, .f32⟩ : BufTy).Contents (Elt Ideal)) (a6 : (⟨Cert.KernelIdeal.S64, .f32⟩ : BufTy).Contents (Elt Ideal))
    (a7 : (⟨Cert.KernelIdeal.S64x64, .f32⟩ : BufTy).Contents (Elt Ideal)) (a8 : (⟨Cert.KernelIdeal.S64, .f32⟩ : BufTy).Contents (Elt Ideal)) :
    Cert.ReferenceIdeal.Read.val_main_v17 (F := Ideal) a0 a5 a6 a7 a8 = Cert.KernelIdeal.Result.mlp (F := Ideal) a0 a5 a6 a7 a8 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array ends at `out q k` of its own q and k, and the
    reference's at `out` of the q and k its own stages compute: the same q and k, since the perceptrons are one function
    and the arguments agree. -/
theorem algebraic : Cert.algebraic_KernelIdeal_ReferenceIdeal := by
  intro m ρ m' ρ' _ hagree
  refine ⟨fun c => fun i : Cert.KernelIdeal.S8192x8192.Idx =>
      Cert.Attn.out (Cert.KernelIdeal.Result.qOf m c) (Cert.KernelIdeal.Result.kOf m c) ⟨(i 0).val, (i 0).isLt⟩ ⟨(i 1).val, (i 1).isLt⟩,
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq]
  funext i
  rw [Cert.ReferenceIdeal.RefValue.result_apply]
  obtain ⟨h0, h1, h2, h3, h4, h5, h6, h7, h8⟩ := hagree c
  rw [h0, h1, h2, h3, h4, h5, h6, h7, h8, perceptron_q, perceptron_k]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
